-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_cst_2 : FVec F S_ .f32 := constant S_ .f32 0x00000000#32
  let main_v9 : FVec F S8192x8192 .f32 := broadcastInDim S8192x8192 ![] bcast_S_S8192x8192 main_cst_2
  let main_v10 : IVec S8192x8192 1 := cmpf .ogt main_arg1 main_v9
  let main_c_3 : IVec S_ 1 := constantI S_ 1 1#1
  let main_v11 : IVec S_ 1 := (fun x v => Host.reduce IntOp.andi x v reducesTo_S8192x8192_S_d0_1 h_S_) main_v10 main_c_3
  let main_v12 : IVec S_ 1 := andi main_v8 main_v11
  let main_cst_4 : FVec F S_ .f32 := constant S_ .f32 0x3F800000#32
  let main_v13 : FVec F S8192x8192 .f32 := broadcastInDim S8192x8192 ![] bcast_S_S8192x8192 main_cst_4
  let main_v14 : IVec S8192x8192 1 := cmpf .olt main_arg1 main_v13
  let main_c_5 : IVec S_ 1 := constantI S_ 1 1#1
  let main_v15 : IVec S_ 1 := (fun x v => Host.reduce IntOp.andi x v reducesTo_S8192x8192_S_d0_1 h_S_) main_v14 main_c_5
  fn_part1 (F := F) main_v12 main_v15
-- ==== Kernel.lean ====
abbrev S8192x8192 : Shape := ⟨2, ![8192, 8192]⟩
abbrev S256x8192 : Shape := ⟨2, ![256, 8192]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | .local _ .vmem, ⟨5, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.Words.lean ====
/-
  The four float words the two programs spell, as the extended reals they denote: the additive
  zero, the unit, and the two infinities (minus infinity seeds the row maximum of the softmax;
  plus infinity bounds the finiteness test of the precondition).
-/
import Idealize.ShloMosaic.PureOps.Ideal

noncomputable section

namespace Cert.GumbelSoftmax.Words

open Idealize.ShloMosaic

/-- The word of `+0.0` denotes `0`. -/
theorem zero : Ideal.ofBits .f32 0x00000000#32 = (0 : EReal) := by
  simp [Ideal.ofBits, Ideal.ieee]

/-- The word of `1.0` denotes `1`. -/
theorem one : Ideal.ofBits .f32 0x3F800000#32 = (1 : EReal) := by
  simp [Ideal.ofBits, Ideal.ieee, -EReal.coe_mul]; norm_num

/-- The word of `-inf` denotes the bottom of the extended reals. -/
theorem negInf : Ideal.ofBits .f32 0xFF800000#32 = (⊥ : EReal) := by
  simp [Ideal.ofBits, Ideal.ieee]

/-- The word of `+inf` denotes the top of the extended reals. -/
theorem posInf : Ideal.ofBits .f32 0x7F800000#32 = (⊤ : EReal) := by
  simp [Ideal.ofBits, Ideal.ieee]

end Cert.GumbelSoftmax.Words

end
-- ==== Proof.Precondition.lean ====
/-
  What the precondition says of the two argument arrays, entry by entry: every logit is a real
  number (its absolute value is below plus infinity), and every noise entry is a real number
  strictly between 0 and 1 (finite, above 0, below 1) — the domain on which the reference's two
  logarithms, `log u` and `log (-log u)`, are both taken of a positive number.
-/
import proofs.«161220_g78529182040842_cont_9to1c4b_151_6_alg».proof.Pre_finite_inputs
import proofs.«161220_g78529182040842_cont_9to1c4b_151_6_alg».proof.Proof.Words
import Idealize.ShloMosaic.Lib.ReduceAll
import Idealize.ShloMosaic.PureOps.Ideal

noncomputable section

namespace Cert.GumbelSoftmax

open Idealize.ShloMosaic Cert.Pre_finite_inputs

instance : Subsingleton S_.Idx := ⟨fun a b => funext fun d => d.elim0⟩

theorem ofBool_eq_one {b : Bool} : BitVec.ofBool b = 1#1 ↔ b = true := by cases b <;> decide

/-- The ordered "less than" test answers 1 exactly when the order says so. -/
theorem cmp_olt {x y : EReal} : Ideal.cmp .olt x y = 1#1 ↔ x < y := by
  unfold Ideal.cmp
  simp only [ofBool_eq_one, decide_eq_true_eq]

/-- The ordered "greater than" test answers 1 exactly when the order says so. -/
theorem cmp_ogt {x y : EReal} : Ideal.cmp .ogt x y = 1#1 ↔ y < x := by
  unfold Ideal.cmp
  simp only [ofBool_eq_one, decide_eq_true_eq]

/-- An extended real whose absolute value is below plus infinity is a real. -/
theorem real_of_abs_lt_top {x : EReal} (h : max x (-x) < ⊤) : ∃ r : ℝ, x = (r : EReal) := by
  induction x using EReal.rec with
  | bot => simp at h
  | coe r => exact ⟨r, rfl⟩
  | top => simp at h

/-- The precondition, read at an index: logits real, noise a real in the open unit interval. -/
theorem decode [Facts] (x0 x1 : FVec Ideal S8192x8192 .f32)
    (h : fn (F := Ideal) x0 x1 = (fun _ => 1#1)) :
    (∀ i, ∃ l : ℝ, x0 i = (l : EReal)) ∧ (∀ i, ∃ u : ℝ, 0 < u ∧ u < 1 ∧ x1 i = (u : EReal)) := by
  have h0 := congrFun h (fun a => a.elim0)
  dsimp only [fn, fn_part1] at h0
  obtain ⟨h123, hD⟩ := IntOp.andi_eq_one.1 h0
  obtain ⟨h12, hC⟩ := IntOp.andi_eq_one.1 h123
  obtain ⟨hA, hB⟩ := IntOp.andi_eq_one.1 h12
  refine ⟨fun i => ?_, fun i => ?_⟩
  · have a : Ideal.cmp .olt (max (x0 i) (-(x0 i))) (Ideal.ofBits .f32 0x7F800000#32) = 1#1 :=
      Host.reduce_andi_all _ _ _ _ _ hA i
    rw [Words.posInf] at a
    exact real_of_abs_lt_top (cmp_olt.1 a)
  · have b : Ideal.cmp .olt (max (x1 i) (-(x1 i))) (Ideal.ofBits .f32 0x7F800000#32) = 1#1 :=
      Host.reduce_andi_all _ _ _ _ _ hB i
    have c : Ideal.cmp .ogt (x1 i) (Ideal.ofBits .f32 0x00000000#32) = 1#1 :=
      Host.reduce_andi_all _ _ _ _ _ hC i
    have d : Ideal.cmp .olt (x1 i) (Ideal.ofBits .f32 0x3F800000#32) = 1#1 :=
      Host.reduce_andi_all _ _ _ _ _ hD i
    rw [Words.posInf] at b
    rw [Words.zero] at c
    rw [Words.one] at d
    obtain ⟨u, hu⟩ := real_of_abs_lt_top (cmp_olt.1 b)
    have c' := cmp_ogt.1 c
    have d' := cmp_olt.1 d
    rw [hu] at c' d'
    exact ⟨u, by exact_mod_cast c', by exact_mod_cast d', hu⟩

end Cert.GumbelSoftmax

end
-- ==== Proof.SoftmaxLaw.lean ====
/-
  The softmax law behind the certificate, on the extended reals, for real logits `l` and real
  noise `u` with `0 < u < 1`.

  Write `w = exp l / (-log u)`, a positive real. One program forms `w` directly, sums a row of
  them and multiplies each by the reciprocal of the sum. The other forms `z = l - log (-log u)`,
  subtracts a row constant `M`, exponentiates, sums, and divides. Since
  `exp (z - M) = w * exp (-M)` and `exp (-M)` is a positive real common to the row, the quotient
  is `w / Σ w` whatever the real `M` is; only that `M` IS a real matters, and a maximum of finitely
  many (at least one) reals is one.
-/
import Idealize.ShloMosaic.PureOps.Ideal
import proofs.«161220_g78529182040842_cont_9to1c4b_151_6_alg».proof.Proof.Words

noncomputable section

namespace Cert.GumbelSoftmax

open Idealize.ShloMosaic

/-- A finite sum of reals, each read as an extended real, is the real sum read as an extended real. -/
theorem coe_sum {K : Type} (s : Finset K) (f : K → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The positive weight `exp l / (-log u)` of one entry. -/
def weight (l u : ℝ) : ℝ := Real.exp l / (-Real.log u)

theorem neg_log_pos {u : ℝ} (h0 : 0 < u) (h1 : u < 1) : 0 < -Real.log u := by
  have := Real.log_neg h0 h1
  linarith

theorem weight_pos (l : ℝ) {u : ℝ} (h0 : 0 < u) (h1 : u < 1) : 0 < weight l u :=
  div_pos (Real.exp_pos l) (neg_log_pos h0 h1)

/-- The extended-real logarithm of a positive real is the real logarithm. -/
theorem log_coe_pos {r : ℝ} (h : 0 < r) : Ideal.log (r : EReal) = ((Real.log r : ℝ) : EReal) := by
  rw [Ideal.log_coe, if_neg (not_le.2 h)]

/-- Zero minus the logarithm of `u ∈ (0,1)` is the positive real `-log u`. -/
theorem zero_sub_log {u : ℝ} (h0 : 0 < u) :
    Ideal.ofBits .f32 0x00000000#32 - Ideal.log (u : EReal) = ((-Real.log u : ℝ) : EReal) := by
  rw [Words.zero, log_coe_pos h0, zero_sub, EReal.coe_neg]

/-- The directly formed entry: `exp l / (0 - log u)` is the weight. -/
theorem direct_entry (l : ℝ) {u : ℝ} (h0 : 0 < u) (h1 : u < 1) :
    Ideal.div (Ideal.exp (l : EReal)) (Ideal.ofBits .f32 0x00000000#32 - Ideal.log (u : EReal))
      = ((weight l u : ℝ) : EReal) := by
  rw [zero_sub_log h0, Ideal.exp_coe, Ideal.div_coe (ne_of_gt (neg_log_pos h0 h1)), ← EReal.coe_mul]
  unfold weight
  rw [mul_one_div]

/-- The directly formed result: an entry times the reciprocal of a nonzero real row sum. -/
theorem direct_result (w : ℝ) {S : ℝ} (hS : S ≠ 0) :
    (w : EReal) * Ideal.div (Ideal.ofBits .f32 0x3F800000#32) (S : EReal) = ((w / S : ℝ) : EReal) := by
  rw [Words.one, Ideal.div_coe hS, one_mul, ← EReal.coe_mul, mul_one_div]

/-- The exponent before the shift, `(l + -(log (-(log u)))) / 1`, is the real `l - log (-log u)`. -/
theorem exponent (l : ℝ) {u : ℝ} (h0 : 0 < u) (h1 : u < 1) :
    Ideal.div ((l : EReal) + -(Ideal.log (-(Ideal.log (u : EReal))))) (Ideal.ofBits .f32 0x3F800000#32)
      = ((l - Real.log (-Real.log u) : ℝ) : EReal) := by
  rw [log_coe_pos h0, ← EReal.coe_neg, log_coe_pos (neg_log_pos h0 h1), ← EReal.coe_neg, ← EReal.coe_add,
    Words.one, show (1 : EReal) = ((1 : ℝ) : EReal) from rfl, Ideal.div_coe one_ne_zero, ← EReal.coe_mul]
  congr 1
  ring

/-- The shifted exponent `(l + -(log (-(log u)))) / 1 - M` is the real `l - log (-log u) - M`. -/
theorem shifted_exponent (l M : ℝ) {u : ℝ} (h0 : 0 < u) (h1 : u < 1) :
    Ideal.div ((l : EReal) + -(Ideal.log (-(Ideal.log (u : EReal))))) (Ideal.ofBits .f32 0x3F800000#32) - (M : EReal)
      = ((l - Real.log (-Real.log u) - M : ℝ) : EReal) := by
  rw [log_coe_pos h0, ← EReal.coe_neg, log_coe_pos (neg_log_pos h0 h1), ← EReal.coe_neg, ← EReal.coe_add,
    Words.one, show (1 : EReal) = ((1 : ℝ) : EReal) from rfl, Ideal.div_coe one_ne_zero, ← EReal.coe_mul,
    ← EReal.coe_sub]
  congr 1
  ring

/-- The shifted entry: `exp` of the shifted exponent is the weight times `exp (-M)`. -/
theorem shifted_entry (l M : ℝ) {u : ℝ} (h0 : 0 < u) (h1 : u < 1) :
    Ideal.exp (Ideal.div ((l : EReal) + -(Ideal.log (-(Ideal.log (u : EReal))))) (Ideal.ofBits .f32 0x3F800000#32) - (M : EReal))
      = ((weight l u * Real.exp (-M) : ℝ) : EReal) := by
  rw [shifted_exponent l M h0 h1, Ideal.exp_coe]
  congr 1
  unfold weight
  have hb := neg_log_pos h0 h1
  rw [sub_sub, Real.exp_sub, Real.exp_add, Real.exp_log hb, Real.exp_neg]
  field_simp

/-- The shifted result: the common factor `c = exp (-M) ≠ 0` cancels between an entry and the row sum. -/
theorem shifted_result (w : ℝ) {S c : ℝ} (hS : S ≠ 0) (hc : c ≠ 0) :
    Ideal.div ((w * c : ℝ) : EReal) (Ideal.ofBits .f32 0x00000000#32 + ((S * c : ℝ) : EReal)) = ((w / S : ℝ) : EReal) := by
  rw [Words.zero, zero_add, Ideal.div_coe (mul_ne_zero hS hc), ← EReal.coe_mul]
  congr 1
  field_simp

/-- The maximum of finitely many reals, folded from minus infinity, is minus infinity or a real. -/
theorem fold_max_real_or_bot {K : Type} (s : Finset K) (f : K → ℝ) :
    s.fold max (⊥ : EReal) (fun k => ((f k : ℝ) : EReal)) = ⊥
      ∨ ∃ M : ℝ, s.fold max (⊥ : EReal) (fun k => ((f k : ℝ) : EReal)) = (M : EReal) := by
  classical
  induction s using Finset.induction_on with
  | empty => exact Or.inl (Finset.fold_empty)
  | insert a s ha ih =>
    rw [Finset.fold_insert ha]
    rcases ih with h | ⟨M, h⟩
    · exact Or.inr ⟨f a, by rw [h, max_bot_right]⟩
    · exact Or.inr ⟨max (f a) M, by rw [h]; exact (Monotone.map_max EReal.coe_strictMono.monotone).symm⟩

/-- Over a nonempty finite set it is a real. -/
theorem fold_max_real {K : Type} (s : Finset K) (f : K → ℝ) (k0 : K) (hk : k0 ∈ s) :
    ∃ M : ℝ, s.fold max (⊥ : EReal) (fun k => ((f k : ℝ) : EReal)) = (M : EReal) := by
  rcases fold_max_real_or_bot s f with h | h
  · exfalso
    have hle : ((f k0 : ℝ) : EReal) ≤ s.fold max (⊥ : EReal) (fun k => ((f k : ℝ) : EReal)) :=
      (Finset.le_fold_max _).2 (Or.inr ⟨k0, hk, le_refl _⟩)
    rw [h] at hle
    exact absurd (le_bot_iff.1 hle) (EReal.coe_ne_bot _)
  · exact h

end Cert.GumbelSoftmax

end
-- ==== Proof.Spec.lean ====
/-
  The one function both programs compute, over the literal 8192 x 8192 shape: entry `(r, q)` of
  the result is `e (r, q) * (1 / Σ_k e (r, k))` with `e = exp l / (0 - log u)`, all on the extended
  reals. On real logits and noise in the open unit interval it is the real quotient
  `w (r, q) / Σ_k w (r, k)` of the positive weights `w = exp l / (-log u)`.
-/
import proofs.«161220_g78529182040842_cont_9to1c4b_151_6_alg».proof.Proof.SoftmaxLaw
import Idealize.ShloMosaic.Lib.ValueIdx

noncomputable section

namespace Cert.GumbelSoftmax

open Idealize.ShloMosaic Idealize.ShloMosaic.ValueIdx

/-- The shape of both arguments and of the result. -/
abbrev Sq : Shape := ⟨2, ![8192, 8192]⟩

/-- The row of an index. -/
def rowOf (i : Sq.Idx) : Fin 8192 := ⟨(i 0).val, (i 0).isLt⟩

/-- One unnormalized entry, `exp l / (0 - log u)`. -/
def entry (x0 x1 : Sq.Idx → EReal) (i : Sq.Idx) : EReal :=
  Ideal.div (Ideal.exp (x0 i)) (Ideal.ofBits .f32 0x00000000#32 - Ideal.log (x1 i))

/-- Each entry times the reciprocal of the sum of its row. -/
def rowNormalized (x0 x1 : Sq.Idx → EReal) : Sq.Idx → EReal := fun i =>
  entry x0 x1 i * Ideal.div (Ideal.ofBits .f32 0x3F800000#32) (∑ k : Fin 8192, entry x0 x1 (ix2 (rowOf i) k))

/-- The real sum of the weights of the row of `i`. -/
def rowWeightSum (l u : Sq.Idx → ℝ) (i : Sq.Idx) : ℝ :=
  ∑ k : Fin 8192, weight (l (ix2 (rowOf i) k)) (u (ix2 (rowOf i) k))

theorem rowWeightSum_pos (l u : Sq.Idx → ℝ) (h0 : ∀ i, 0 < u i) (h1 : ∀ i, u i < 1) (i : Sq.Idx) :
    0 < rowWeightSum l u i :=
  Finset.sum_pos (fun k _ => weight_pos _ (h0 _) (h1 _)) ⟨⟨0, by norm_num⟩, Finset.mem_univ _⟩

/-- On real logits and noise in (0,1) the function is the real quotient of a weight by its row's sum. -/
theorem rowNormalized_real (x0 x1 : Sq.Idx → EReal) (l u : Sq.Idx → ℝ)
    (hx0 : ∀ i, x0 i = ((l i : ℝ) : EReal)) (hx1 : ∀ i, x1 i = ((u i : ℝ) : EReal))
    (h0 : ∀ i, 0 < u i) (h1 : ∀ i, u i < 1) (i : Sq.Idx) :
    rowNormalized x0 x1 i = ((weight (l i) (u i) / rowWeightSum l u i : ℝ) : EReal) := by
  unfold rowNormalized entry
  simp only [hx0, hx1, direct_entry _ (h0 _) (h1 _)]
  rw [coe_sum]
  exact direct_result _ (ne_of_gt (rowWeightSum_pos l u h0 h1 i))

end Cert.GumbelSoftmax

end
-- ==== Proof.KernelValue.lean ====
/-
  What the kernel leaves in its result array, on the extended reals.

  The grid has 32 points; point `t` owns the 256 whole rows `256 t … 256 t + 255` of both
  arguments and of the result. Its body divides `exp` of the logits block by `0 - log` of the
  noise block, sums each of the 256 rows over its 8192 lanes, and multiplies every entry by the
  reciprocal of its row's sum. A block holds whole rows, so the lane sum over the block's row IS
  the sum over the array's row: what point `t` writes back is block `t` of ONE whole-array
  function, `rowNormalized`, and the 32 blocks tile the array.
-/
import proofs.«161220_g78529182040842_cont_9to1c4b_151_6_alg».proof.Proof.Gen.KernelIdeal.Value
import proofs.«161220_g78529182040842_cont_9to1c4b_151_6_alg».proof.Proof.Spec
import Idealize.ShloMosaic.Lib.Pipeline.Value
import Idealize.ShloMosaic.Lib.ValueIdx
import Idealize.ShloMosaic.PureOps.Ideal.Laws

noncomputable section

namespace Cert.KernelIdeal.RowNorm

open Cert.KernelIdeal Cert.KernelIdeal.Gen Idealize.ShloMosaic Idealize.ShloMosaic.TcCoe Idealize.SL.Sem
open Idealize.ShloMosaic.Pipeline (Dat)
open Idealize.ShloMosaic.ValueIdx
open Cert.GumbelSoftmax

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- The lane sum of row `r` of a block of unnormalized entries is the sum over the row's 8192 lanes. -/
theorem laneSum_apply (P0 P1 : Vec Ideal S256x8192 .f32) (r : Fin 256) :
    (multiReduction (F := Ideal) .add [1] S256 (divf (exp P0) (subf (broadcast S256x8192 (Scalar.ofBits .f32 0x00000000#32)) (log P1)))
        0x00000000#32 reduces_S256x8192_S256 (.inl rfl) rfl) (ix1 r)
      = ∑ k : Fin 8192, Ideal.div (Ideal.exp (P0 (ix2 r k))) (Ideal.ofBits .f32 0x00000000#32 - Ideal.log (P1 (ix2 r k))) := by
  refine (Ideal.multiReduction_add_single _ 0x00000000#32 reduces_S256x8192_S256 (.inl rfl) rfl (ix1 r)).trans ?_
  refine Finset.sum_congr rfl fun k _ => ?_
  have e : reduces_S256x8192_S256.lift (ix1 r) k = ix2 r (⟨k.val, k.isLt⟩ : Fin 8192) :=
    funext fun a => Fin.ext (by match a with | ⟨0, _⟩ => rfl | ⟨1, _⟩ => rfl)
  rw [e]
  rfl

/-- The block the body stores, at row `p` and lane `q`, from the two blocks it loaded: the entry times the
    reciprocal of the sum of the entries of row `p`. -/
theorem block_apply (P0 P1 : Vec Ideal S256x8192 .f32) (p : Fin 256) (q : Fin 8192) :
    out0_2 P0 P1 (ix2 p q)
      = Ideal.div (Ideal.exp (P0 (ix2 p q))) (Ideal.ofBits .f32 0x00000000#32 - Ideal.log (P1 (ix2 p q)))
        * Ideal.div (Ideal.ofBits .f32 0x3F800000#32)
            (∑ k : Fin 8192, Ideal.div (Ideal.exp (P0 (ix2 p k))) (Ideal.ofBits .f32 0x00000000#32 - Ideal.log (P1 (ix2 p k)))) := by
  unfold out0_2
  simp only [View.ld_unit_zero (S := S256x8192) hz]
  rw [Value.canon2_eq]
  have e0 : Value.ix2_0 (ix2 p q) = ix2 p q :=
    funext fun a => Fin.ext (by match a with | ⟨0, _⟩ => rfl | ⟨1, _⟩ => rfl)
  have e1 : Value.ix2_1 (ix2 p q) = ix2 p q :=
    funext fun a => Fin.ext (by match a with | ⟨0, _⟩ => rfl | ⟨1, _⟩ => rfl)
  have e2 : Value.ix2_2 (ix2 p q) = ix1 p :=
    funext fun a => Fin.ext (by match a with | ⟨0, _⟩ => rfl)
  dsimp only [Value.E2]
  rw [e0, e1, e2, laneSum_apply P0 P1 p]
  rfl

/-! ## The 32 blocks -/

/-- The three index maps over the grid, decided: all three windows are at block row `t`, block column 0. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 31 :=
  (by decide +kernel : ∀ t : Fin grid0.N, _)

/-- Every one of the 32 block rows is some grid point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- WHAT POINT `t` WRITES BACK is block `t` of `rowNormalized` of the two argument arrays: the loaded blocks are the
    arguments' rows `256 t …`, whole, so a block row's lane sum is the array row's sum. -/
theorem flushed_eq (c : Dev nD) (t : Fin cfg0.N) :
    (dats m 0 c).flushed 2 t
      = ((cfg0.win 2).blk t).view.read (Elt Ideal) (rowNormalized (V m c main_arg0) (V m c main_arg1)) := by
  rw [Value.flushed2]
  obtain ⟨e0, e1, e2, e3, e4, e5⟩ := idx_facts t
  funext j
  obtain ⟨p, q, rfl⟩ : ∃ (p : Fin 256) (q : Fin 8192), j = ix2 p q := ⟨j 0, j 1, eq_ix2 j⟩
  show out0_2 (iblk m c 0 t) (iblk m c 1 t) (ix2 p q)
    = rowNormalized (V m c main_arg0) (V m c main_arg1) (((cfg0.win 2).blk t).view.emb (ix2 p q))
  rw [block_apply]
  have hp0 : iblk m c 0 t (ix2 p q) = V m c main_arg0 (((cfg0.win 2).blk t).view.emb (ix2 p q)) := by
    show V m c main_arg0 (((cfg0.win 0).blk t).view.emb (ix2 p q)) = V m c main_arg0 (((cfg0.win 2).blk t).view.emb (ix2 p q))
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * q.val = win0_2.index t (1 : Fin 2) * 8192 + 1 * q.val; omega
  have hp1 : iblk m c 1 t (ix2 p q) = V m c main_arg1 (((cfg0.win 2).blk t).view.emb (ix2 p q)) := by
    show V m c main_arg1 (((cfg0.win 1).blk t).view.emb (ix2 p q)) = V m c main_arg1 (((cfg0.win 2).blk t).view.emb (ix2 p q))
    refine congrArg _ (funext fun a => Fin.ext ?_)
    match a with
    | ⟨0, _⟩ => show win0_1.index t (0 : Fin 2) * 256 + 1 * p.val = win0_2.index t (0 : Fin 2) * 256 + 1 * p.val; omega
    | ⟨1, _⟩ => show win0_1.index t (1 : Fin 2) * 8192 + 1 * q.val = win0_2.index t (1 : Fin 2) * 8192 + 1 * q.val; omega
  have hq0 : ∀ k : Fin 8192, iblk m c 0 t (ix2 p k)
      = V m c main_arg0 (ix2 (rowOf (((cfg0.win 2).blk t).view.emb (ix2 p q))) k) := by
    intro k
    show V m c main_arg0 (((cfg0.win 0).blk t).view.emb (ix2 p k)) = _
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * k.val = k.val; omega
  have hq1 : ∀ k : Fin 8192, iblk m c 1 t (ix2 p k)
      = V m c main_arg1 (ix2 (rowOf (((cfg0.win 2).blk t).view.emb (ix2 p q))) k) := by
    intro k
    show V m c main_arg1 (((cfg0.win 1).blk t).view.emb (ix2 p k)) = _
    refine congrArg _ (funext fun a => Fin.ext ?_)
    match a with
    | ⟨0, _⟩ => show win0_1.index t (0 : Fin 2) * 256 + 1 * p.val = win0_2.index t (0 : Fin 2) * 256 + 1 * p.val; omega
    | ⟨1, _⟩ => show win0_1.index t (1 : Fin 2) * 8192 + 1 * k.val = k.val; omega
  unfold rowNormalized entry
  rw [hp0, hp1]
  simp only [hq0, hq1]

/-- An index of the array is in point `t`'s block iff each coordinate is in the block's range on its axis. -/
theorem mem_blk (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v0).slice (win0_2.rect t)).set ↔ _
  rw [View.set_slice_whole, Rect.mem_set_unit]
  exact Iff.rfl

/-- The blocks cover the array: row `r` lies in the block of the point at block row `r / 256`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 8192 ≤ (i 1).val ∧ (i 1).val < win0_2.index t (1 : Fin 2) * 8192 + 8192
    omega

/-- THE RESULT ARRAY after the run is `rowNormalized` of the two argument arrays. -/
theorem final (c : Dev nD) :
    (dats m 0 c).arrAt 2 cfg0.N = rowNormalized (V m c main_arg0) (V m c main_arg1) :=
  (dats m 0 c).arrAt_eq_of_cover 2 _ (fun t _ => flushed_eq m c t) cover

/-- The run: the result array at `rowNormalized` of the arguments, the arguments unchanged. -/
theorem run : θ_run defs (onTc (τ := τ) (main (F := Ideal))) ⟨m, fun _ => 0, ρ⟩ fun r => ∀ c : Dev nD,
      r.2.mem ((c : Thread nD τ).loc main_v0)
        = rowNormalized (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowNorm

end
-- ==== Proof.RefValue.lean ====
/-
  What the reference computes, on the extended reals, for real logits `l` and real noise `u` in the
  open unit interval: with `z = l - log (-log u)` and `M` the maximum of a row of `z` (a real, the
  row being finite and nonempty), entry `(r, q)` is `exp (z - M) / (0 + Σ_k exp (z_k - M))`, which
  is the quotient of the weight `w = exp l / (-log u)` by the sum of its row's weights, the common
  factor `exp (-M)` cancelling: the same real the directly normalized rows give.
-/
import proofs.«161220_g78529182040842_cont_9to1c4b_151_6_alg».proof.Proof.Gen.ReferenceIdeal.Read
import proofs.«161220_g78529182040842_cont_9to1c4b_151_6_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic
open Idealize.ShloMosaic.ValueIdx Cert.GumbelSoftmax

/-- Rows are reduced along the second axis. -/
theorem hred : S8192x8192.Reduces [1] S8192 := by decide

/-- The exponent `z = (l + -(log (-(log u)))) / 1` at an index is the real `l - log (-log u)`. -/
theorem exponent_real (x0 x1 : (⟨S8192x8192, .f32⟩ : BufTy).Contents (Elt Ideal)) (l u : Sq.Idx → ℝ)
    (hx0 : ∀ i, x0 i = ((l i : ℝ) : EReal)) (hx1 : ∀ i, x1 i = ((u i : ℝ) : EReal))
    (h0 : ∀ i, 0 < u i) (h1 : ∀ i, u i < 1) (i : S8192x8192.Idx) :
    val_main_v6 (F := Ideal) x0 x1 i = ((l i - Real.log (-Real.log (u i)) : ℝ) : EReal) := by
  rw [val_main_v6_apply, val_main_v4_apply, val_main_v3_apply, val_main_v2_apply, val_main_v1_apply, val_main_v0_apply,
    val_main_v5_apply, val_main_cst_apply]
  simp only [Ideal.hostDivf_def, Ideal.addf_def, Ideal.hostNegf_def, Ideal.negf_def, Ideal.hostUnary_log_def,
    Ideal.ofBits_def, hx0, hx1]
  exact exponent (l i) (h0 i) (h1 i)

/-- The row maximum, taken from minus infinity over the 8192 real exponents of a row, is a real. -/
theorem rowMax_real (x0 x1 : (⟨S8192x8192, .f32⟩ : BufTy).Contents (Elt Ideal)) (l u : Sq.Idx → ℝ)
    (hx0 : ∀ i, x0 i = ((l i : ℝ) : EReal)) (hx1 : ∀ i, x1 i = ((u i : ℝ) : EReal))
    (h0 : ∀ i, 0 < u i) (h1 : ∀ i, u i < 1) (r : S8192.Idx) :
    ∃ M : ℝ, val_main_v9 (F := Ideal) x0 x1 r = (M : EReal) := by
  rw [val_main_v9_apply, val_main_v8_apply, val_main_cst_1_apply]
  unfold val_main_v7
  rw [Host.reduce_eq_fold_single FloatOps.maximumf _ _ reducesTo_S8192x8192_S8192_d1 hred h_S_]
  have hf : (val_main_v6 (F := Ideal) x0 x1 ∘ hred.lift r)
      = fun k => (((fun k => l (hred.lift r k) - Real.log (-Real.log (u (hred.lift r k)))) k : ℝ) : EReal) :=
    funext fun k => exponent_real x0 x1 l u hx0 hx1 h0 h1 _
  obtain ⟨M, hM⟩ := fold_max_real Finset.univ (fun k => l (hred.lift r k) - Real.log (-Real.log (u (hred.lift r k))))
    (⟨0, by decide⟩ : Fin (S8192x8192.size 1)) (Finset.mem_univ _)
  refine ⟨M, ?_⟩
  rw [hf]
  show max (Ideal.ofBits .f32 0xFF800000#32) (Finset.fold max (Ideal.ofBits .f32 0xFF800000#32) _ Finset.univ) = (M : EReal)
  rw [Words.negInf, hM, max_bot_left]

/-- The shifted exponential at an index: the weight times `exp (-M)`, `M` the maximum of the index's row. -/
theorem shiftedExp_real (x0 x1 : (⟨S8192x8192, .f32⟩ : BufTy).Contents (Elt Ideal)) (l u : Sq.Idx → ℝ)
    (hx0 : ∀ i, x0 i = ((l i : ℝ) : EReal)) (hx1 : ∀ i, x1 i = ((u i : ℝ) : EReal))
    (h0 : ∀ i, 0 < u i) (h1 : ∀ i, u i < 1)
    (M : S8192.Idx → ℝ) (hM : ∀ r, val_main_v9 (F := Ideal) x0 x1 r = ((M r : ℝ) : EReal)) (i : S8192x8192.Idx) :
    val_main_v13 (F := Ideal) x0 x1 i
      = ((weight (l i) (u i) * Real.exp (-(M (idx_main_v10 (idx_main_v11 i)))) : ℝ) : EReal) := by
  rw [val_main_v13_apply, val_main_v12_apply, val_main_v11_apply, val_main_v10_apply, hM,
    val_main_v6_apply, val_main_v4_apply, val_main_v3_apply, val_main_v2_apply, val_main_v1_apply, val_main_v0_apply,
    val_main_v5_apply, val_main_cst_apply]
  simp only [Ideal.hostUnary_exp_def, Ideal.subf_def, Ideal.hostDivf_def, Ideal.addf_def, Ideal.hostNegf_def,
    Ideal.negf_def, Ideal.hostUnary_log_def, Ideal.ofBits_def, hx0, hx1]
  exact shifted_entry (l i) _ (h0 i) (h1 i)

/-- The row sum of the shifted exponentials: zero plus the row's weight sum times the row's `exp (-M)`. -/
theorem rowSum_real (x0 x1 : (⟨S8192x8192, .f32⟩ : BufTy).Contents (Elt Ideal)) (l u : Sq.Idx → ℝ)
    (hx0 : ∀ i, x0 i = ((l i : ℝ) : EReal)) (hx1 : ∀ i, x1 i = ((u i : ℝ) : EReal))
    (h0 : ∀ i, 0 < u i) (h1 : ∀ i, u i < 1)
    (M : S8192.Idx → ℝ) (hM : ∀ r, val_main_v9 (F := Ideal) x0 x1 r = ((M r : ℝ) : EReal)) (r : S8192.Idx) :
    val_main_v14 (F := Ideal) x0 x1 r
      = Ideal.ofBits .f32 0x00000000#32
        + (((∑ k : Fin 8192, weight (l (idx_main_v14 r k)) (u (idx_main_v14 r k))) * Real.exp (-(M r)) : ℝ) : EReal) := by
  rw [val_main_v14_apply, val_main_cst_2_apply]
  simp only [shiftedExp_real x0 x1 l u hx0 hx1 h0 h1 M hM]
  have hrow : ∀ k : Fin 8192, idx_main_v10 (idx_main_v11 (idx_main_v14 r k)) = r :=
    fun k => funext fun a => Fin.ext (by match a with | ⟨0, _⟩ => rfl)
  simp only [hrow]
  rw [coe_sum, Finset.sum_mul]
  rfl

/-- The reference's result at an index: the weight over its row's weight sum. -/
theorem result_real (x0 x1 : (⟨S8192x8192, .f32⟩ : BufTy).Contents (Elt Ideal)) (l u : Sq.Idx → ℝ)
    (hx0 : ∀ i, x0 i = ((l i : ℝ) : EReal)) (hx1 : ∀ i, x1 i = ((u i : ℝ) : EReal))
    (h0 : ∀ i, 0 < u i) (h1 : ∀ i, u i < 1) (i : S8192x8192.Idx) :
    val_main_v17 (F := Ideal) x0 x1 i = ((weight (l i) (u i) / rowWeightSum l u i : ℝ) : EReal) := by
  choose M hM using rowMax_real x0 x1 l u hx0 hx1 h0 h1
  rw [val_main_v17_apply, val_main_v16_apply, val_main_v15_apply, rowSum_real x0 x1 l u hx0 hx1 h0 h1 M hM,
    shiftedExp_real x0 x1 l u hx0 hx1 h0 h1 M hM]
  simp only [Ideal.hostDivf_def]
  have hsum : (∑ k : Fin 8192, weight (l (idx_main_v14 (idx_main_v15 (idx_main_v16 i)) k))
      (u (idx_main_v14 (idx_main_v15 (idx_main_v16 i)) k))) = rowWeightSum l u i := by
    unfold rowWeightSum
    refine Finset.sum_congr rfl fun k _ => ?_
    have e : idx_main_v14 (idx_main_v15 (idx_main_v16 i)) k = ix2 (rowOf i) k :=
      funext fun a => Fin.ext (by match a with | ⟨0, _⟩ => rfl | ⟨1, _⟩ => rfl)
    rw [e]
  rw [hsum]
  exact shifted_result _ (ne_of_gt (rowWeightSum_pos l u h0 h1 i)) (ne_of_gt (Real.exp_pos _))

/-- So on real logits and noise in (0,1) the reference's result array is the directly normalized one. -/
theorem result_eq (x0 x1 : (⟨S8192x8192, .f32⟩ : BufTy).Contents (Elt Ideal))
    (hl : ∀ i, ∃ l : ℝ, x0 i = ((l : ℝ) : EReal))
    (hu : ∀ i, ∃ u : ℝ, 0 < u ∧ u < 1 ∧ x1 i = ((u : ℝ) : EReal)) :
    val_main_v17 (F := Ideal) x0 x1 = rowNormalized x0 x1 := by
  choose l hl using hl
  choose u hu0 hu1 hux using hu
  funext i
  rw [result_real x0 x1 l u hl hux hu0 hu1 i, rowNormalized_real x0 x1 l u hl hux hu0 hu1 i]

end Cert.ReferenceIdeal.RefValue

end
-- ==== Proof.lean ====
/-
  A Gumbel-softmax over rows of length 8192, two ways, compared on the extended reals.

  With logits `l` and noise `u`, one program forms `e = exp l / (0 - log u)`, sums each row and
  multiplies every entry by the reciprocal of its row's sum; it does so in 32 blocks of 256 whole
  rows. The other forms `z = (l + -(log (-(log u)))) / 1`, subtracts the row maximum `M`,
  exponentiates, sums each row from zero, and divides.

  The precondition makes every logit a real and every noise entry a real strictly between 0 and 1 —
  the domain on which `log u` and `log (-log u)` are both logarithms of positive numbers. There
  `w = exp l / (-log u)` is a positive real, `exp (z - M) = w * exp (-M)` with `M` a real (a maximum of
  finitely many, at least one, reals), and `exp (-M)` cancels between an entry and its row's sum: both
  programs end at `w / Σ_row w`, entry by entry. Outside that domain the two differ (at `u = 0` on a
  whole row one ends at `0 * (1/0) = 0`, the other at `0 / 0`), so the precondition is used.

  The modules: Words (the four literal words), SoftmaxLaw (the law, over the reals), Spec (the common
  function `rowNormalized`), Precondition (the precondition read at an index), KernelValue (the
  blocked program ends at `rowNormalized`), RefValue (the other program's term is `rowNormalized`
  on the domain).
-/
import proofs.«161220_g78529182040842_cont_9to1c4b_151_6_alg».proof.Defs
import proofs.«161220_g78529182040842_cont_9to1c4b_151_6_alg».proof.Proof.Gen.Kernel
import proofs.«161220_g78529182040842_cont_9to1c4b_151_6_alg».proof.Proof.Gen.Kernel.Skeleton
import proofs.«161220_g78529182040842_cont_9to1c4b_151_6_alg».proof.Proof.Gen.Kernel.Launch
import proofs.«161220_g78529182040842_cont_9to1c4b_151_6_alg».proof.Proof.Gen.Kernel.Points
import proofs.«161220_g78529182040842_cont_9to1c4b_151_6_alg».proof.Proof.Gen.Kernel.Frame
import proofs.«161220_g78529182040842_cont_9to1c4b_151_6_alg».proof.Proof.Gen.KernelIdeal
import proofs.«161220_g78529182040842_cont_9to1c4b_151_6_alg».proof.Proof.Gen.KernelIdeal.Skeleton
import proofs.«161220_g78529182040842_cont_9to1c4b_151_6_alg».proof.Proof.Gen.KernelIdeal.Launch
import proofs.«161220_g78529182040842_cont_9to1c4b_151_6_alg».proof.Proof.Gen.KernelIdeal.Points
import proofs.«161220_g78529182040842_cont_9to1c4b_151_6_alg».proof.Proof.Gen.KernelIdeal.Frame
import proofs.«161220_g78529182040842_cont_9to1c4b_151_6_alg».proof.Proof.Gen.ReferenceIdeal
import proofs.«161220_g78529182040842_cont_9to1c4b_151_6_alg».proof.Proof.Gen.Pre_finite_inputs
import proofs.«161220_g78529182040842_cont_9to1c4b_151_6_alg».proof.Proof.Gen.KernelIdeal.Value
import proofs.«161220_g78529182040842_cont_9to1c4b_151_6_alg».proof.Proof.Gen.ReferenceIdeal.Run
import proofs.«161220_g78529182040842_cont_9to1c4b_151_6_alg».proof.Proof.Gen.ReferenceIdeal.Read
import proofs.«161220_g78529182040842_cont_9to1c4b_151_6_alg».proof.Proof.Precondition
import proofs.«161220_g78529182040842_cont_9to1c4b_151_6_alg».proof.Proof.KernelValue
import proofs.«161220_g78529182040842_cont_9to1c4b_151_6_alg».proof.Proof.RefValue
import Idealize.ShloMosaic.Adequacy
import Idealize.ShloMosaic.Init

noncomputable section

namespace Cert.Proof

open Idealize.ShloMosaic Idealize.SL.Sem

/-- The blocked program at the word level runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading on the extended reals. -/
theorem preserves : Cert.preserves_Kernel_KernelIdeal := trivial

/-- On logits that are reals and noise strictly between 0 and 1 both programs end at `rowNormalized` of the
    arguments: the blocked one always does, and the reference's term is that function on this domain. -/
theorem algebraic : Cert.algebraic_KernelIdeal_ReferenceIdeal := by
  intro m ρ m' ρ' hpre hagree
  refine ⟨fun c => Cert.GumbelSoftmax.rowNormalized
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hl, hu⟩ := Cert.GumbelSoftmax.decode _ _ (hpre c)
  exact Cert.ReferenceIdeal.RefValue.result_eq _ _ hl hu

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
